-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S1x10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S1x128, .f32⟩
  | .local _ .vmem, ⟨5, _⟩ => ⟨S1x1, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  shapeCasts_S10000x128_S1x10000x128 : S10000x128.ShapeCasts S1x10000x128
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S_ : Shape := ⟨0, ![]⟩
abbrev S1x1x1 : Shape := ⟨3, ![1, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x10000x128, .f32⟩
  | .hbm, ⟨7, _⟩ => ⟨S1x1x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x1x1, .f32⟩
  | .hbm, ⟨14, _⟩ => ⟨S1x10000x128, .f32⟩
  | .hbm, ⟨15, _⟩ => ⟨S1x10000x128, .f32⟩
  | .hbm, ⟨16, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  bcast_S1_S1x1x1_2 : S1.BroadcastsInDim S1x1x1 (![2] : Fin 1 → Fin S1x1x1.rank)
  bcast_S1x1x1_S1x10000x128_0_1_2 : S1x1x1.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Pieces.lean ====
/-
  What one run of the body leaves behind, as values.

  The body does two things. At the grid's first point it forms the feature matrix — every row of the sequence
  against every row of the weight — and stores it whole into a scratch that stays resident. At every point it then
  multiplies its tile of adjacency rows by the resident feature matrix, adds the bias row, and keeps each entry
  where it is non-negative and scales it by the slope where it is negative; that tile is stored whole into the
  output block. So after the first point the scratch holds the feature matrix of the two blocks the point loaded and
  the output block is the activation tile computed FROM that freshly stored matrix; after any later point the
  scratch is untouched and the output block is the activation tile computed from whatever the scratch held.
-/
import proofs.«177363_g386547056873_cont_8to1_b_852_5_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Bridge

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First point: the scratch ends holding the feature matrix of the loaded sequence and weight blocks. -/
theorem scratch_first (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S1x1 .f32) (h5 : a5.IsWhole) (a6 : Memref sig .tc .vmem S400x128 .f32) (h6 : a6.IsWhole) (a7 : Memref sig .tc .vmem S10000x128 .f32) (h7 : a7.IsWhole) (hc : cond0_0 i) (x0 : Vec F S10000x128 .f32) (x1 : Vec F S128x128 .f32) (x2 : Vec F S400x10000 .f32) (x3 : Vec F S1x128 .f32) (x4 : Vec F S1x1 .f32) :
    sout0_A_0 c i a1 h1 a2 h2 a3 h3 a4 h4 a5 h5 a6 h6 a7 h7 hc x0 x1 x2 x3 x4 = k0_pay1 x0 x1 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, View.ld_unit_zero (S := S10000x128) hz,
    View.ld_unit_zero (S := S128x128) hz]

/-- First point: the output block is the activation tile over the feature matrix the same point has just stored
    (the second product reads the scratch back after the store that covers it). -/
theorem out_first (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S1x1 .f32) (h5 : a5.IsWhole) (a6 : Memref sig .tc .vmem S400x128 .f32) (h6 : a6.IsWhole) (a7 : Memref sig .tc .vmem S10000x128 .f32) (h7 : a7.IsWhole) (hc : cond0_0 i) (x0 : Vec F S10000x128 .f32) (x1 : Vec F S128x128 .f32) (x2 : Vec F S400x10000 .f32) (x3 : Vec F S1x128 .f32) (x4 : Vec F S1x1 .f32) :
    out0_A_5 c i a1 h1 a2 h2 a3 h3 a4 h4 a5 h5 a6 h6 a7 h7 hc x0 x1 x2 x3 x4 = k0_pay2 x2 (k0_pay1 x0 x1) x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz, View.readCov_unit_zero (S := S10000x128) _ hz]
  simp only [View.readAt_eq_ld, h1.read_unread, h2.read_unread, h3.read_unread, h4.read_unread, h5.read_unread,
    View.ld_unit_zero (S := S10000x128) hz, View.ld_unit_zero (S := S128x128) hz,
    View.ld_unit_zero (S := S400x10000) hz, View.ld_unit_zero (S := S1x128) hz, View.ld_unit_zero (S := S1x1) hz]

/-- A later point: the output block is the activation tile over what the scratch held on entry. -/
theorem out_later (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S1x1 .f32) (h5 : a5.IsWhole) (a6 : Memref sig .tc .vmem S400x128 .f32) (h6 : a6.IsWhole) (a7 : Memref sig .tc .vmem S10000x128 .f32) (h7 : a7.IsWhole) (hc : ¬cond0_0 i) (x0 : Vec F S10000x128 .f32) (x1 : Vec F S128x128 .f32) (x2 : Vec F S400x10000 .f32) (x3 : Vec F S1x128 .f32) (x4 : Vec F S1x1 .f32) (xs : Vec F S10000x128 .f32) :
    out0_B_5 c i a1 h1 a2 h2 a3 h3 a4 h4 a5 h5 a6 h6 a7 h7 hc x0 x1 x2 x3 x4 xs = k0_pay2 x2 xs x3 x4 := by
  unfold out0_B_5
  rw [View.read_writes_eq_canon _ _ _ (cover0_B_5 c i a1 h1 a2 h2 a3 h3 a4 h4 a5 h5 a6 h6 a7 h7 hc x0 x1 x2 x3 x4 xs)]
  unfold kernelRun0_B
  dsimp only
  sl_unfold_words
  rw [View.canon_unit_zero hz]
  simp only [View.readAt_eq_ld, h3.read_unread, h4.read_unread, h5.read_unread, h7.read_unread,
    View.ld_unit_zero (S := S10000x128) hz,
    View.ld_unit_zero (S := S400x10000) hz, View.ld_unit_zero (S := S1x128) hz, View.ld_unit_zero (S := S1x1) hz]

/-- A later point leaves the scratch as it found it. -/
theorem scratch_later (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S1x1 .f32) (h5 : a5.IsWhole) (a6 : Memref sig .tc .vmem S400x128 .f32) (h6 : a6.IsWhole) (a7 : Memref sig .tc .vmem S10000x128 .f32) (h7 : a7.IsWhole) (hc : ¬cond0_0 i) (x0 : Vec F S10000x128 .f32) (x1 : Vec F S128x128 .f32) (x2 : Vec F S400x10000 .f32) (x3 : Vec F S1x128 .f32) (x4 : Vec F S1x1 .f32) (xs : Vec F S10000x128 .f32) :
    sout0_B_0 c i a1 h1 a2 h2 a3 h3 a4 h4 a5 h5 a6 h6 a7 h7 hc x0 x1 x2 x3 x4 xs = xs := rfl

end Cert.KernelIdeal.Bridge

end
-- ==== Proof.Blocks.lean ====
/-
  The input blocks, entry by entry, as entries of the argument arrays.

  Before the region the program only relabels its arguments: the sequence `[1, 10000, 128]` and the adjacency
  `[1, 10000, 10000]` lose their leading unit axis, the bias `[128]` becomes a row `[1, 128]` and the slope `[1]` a
  `[1, 1]` matrix; the weight goes in as it is. At grid point `t` the adjacency window is the tile of rows
  `400 t … 400 t + 399`; every other input window is the whole of its array at every point. So entry `(p, j)` of the
  adjacency tile is adjacency `(0, 400 t + p, j)`, entry `(j, k)` of the sequence block is sequence `(0, j, k)`, the
  bias row at `d` is bias `d`, and the slope block's one entry is the slope.
-/
import proofs.«177363_g386547056873_cont_8to1_b_852_5_alg».proof.Proof.Gen.KernelIdeal.Frame
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.Bridge

open Cert.KernelIdeal Cert.KernelIdeal.Gen

variable {F : FTy → Type} [FloatOps F]
variable (m : (ℓ : Loc nD τ sig) → Buf (Elt F) ℓ)

/-- Where each window's block sits at point `t`: the adjacency tile and the output tile are at block row `t`, every
    other block is the array's only block. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The relabellings before the region -/

/-- The region finds the sequence with its leading unit axis dropped. -/
theorem seq_flat (c : Dev nD) : (V m c main_v0 : Vec F S10000x128 .f32)
    = shapeCast S10000x128 (m ((c : Thread nD τ).loc main_arg0)) shapeCasts_S1x10000x128_S10000x128 := by
  show StableHlo.after hostOps0 (fun b => m (c, b)) (Proc.devRef .tc main_v0) = _
  after_results
  rfl

/-- The region finds the adjacency with its leading unit axis dropped. -/
theorem adj_flat (c : Dev nD) : (V m c main_v1 : Vec F S10000x10000 .f32)
    = shapeCast S10000x10000 (m ((c : Thread nD τ).loc main_arg1)) shapeCasts_S1x10000x10000_S10000x10000 := by
  show StableHlo.after hostOps0 (fun b => m (c, b)) (Proc.devRef .tc main_v1) = _
  after_results
  rfl

/-- The region finds the bias as a one-row matrix. -/
theorem bias_row (c : Dev nD) : (V m c main_v2 : Vec F S1x128 .f32)
    = shapeCast S1x128 (m ((c : Thread nD τ).loc main_arg3)) shapeCasts_S128_S1x128 := by
  show StableHlo.after hostOps0 (fun b => m (c, b)) (Proc.devRef .tc main_v2) = _
  after_results
  rfl

/-- The region finds the slope as a one-entry matrix. -/
theorem slope_cell (c : Dev nD) : (V m c main_v3 : Vec F S1x1 .f32)
    = shapeCast S1x1 (m ((c : Thread nD τ).loc main_arg4)) shapeCasts_S1_S1x1 := by
  show StableHlo.after hostOps0 (fun b => m (c, b)) (Proc.devRef .tc main_v3) = _
  after_results
  rfl

/-! ## The blocks -/

/-- The sequence window's block is the whole flattened sequence, at every point. -/
theorem seq_block (c : Dev nD) (t : Fin cfg0.N) : (iblk m c 0 t : Vec F S10000x128 .f32) = V m c main_v0 := by
  obtain ⟨e0, e1, -⟩ := block_indices t
  funext y
  unfold iblk
  rw [View.read_apply]
  show V m c main_v0 _ = V m c main_v0 y
  congr 1
  funext a
  apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight window's block is the whole weight, at every point. -/
theorem weight_block (c : Dev nD) (t : Fin cfg0.N) : (iblk m c 1 t : Vec F S128x128 .f32) = V m c main_arg2 := by
  obtain ⟨-, -, e0, e1, -⟩ := block_indices t
  funext y
  unfold iblk
  rw [View.read_apply]
  show V m c main_arg2 _ = V m c main_arg2 y
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Entry `(j, k)` of the flattened sequence is sequence `(0, j, k)`. -/
theorem seq_entry (c : Dev nD) (j : Fin 10000) (k : Fin 128) :
    (V m c main_v0 : Vec F S10000x128 .f32) (ix2 j k) = m ((c : Thread nD τ).loc main_arg0) (ix3 (0 : Fin 1) j k) := by
  rw [seq_flat]
  exact shapeCast_1ab_ab_apply _ _ j k

/-- Entry `(p, j)` of the adjacency tile at point `t` is adjacency `(0, r, j)` at row `r = 400 t + p`. -/
theorem adj_entry (c : Dev nD) (t : Fin cfg0.N) (p : Fin 400) (j : Fin 10000) (r : Fin 10000)
    (hr : r.val = 400 * t.val + p.val) :
    (iblk m c 2 t : Vec F S400x10000 .f32) (ix2 p j) = m ((c : Thread nD τ).loc main_arg1) (ix3 (0 : Fin 1) r j) := by
  obtain ⟨-, -, -, -, e0, e1, -⟩ := block_indices t
  have hblk : (iblk m c 2 t : Vec F S400x10000 .f32) (ix2 p j) = (V m c main_v1 : Vec F S10000x10000 .f32) (ix2 r j) := by
    unfold iblk
    rw [View.read_apply]
    show V m c main_v1 _ = V m c main_v1 _
    congr 1
    funext a
    apply Fin.ext
    match a with
    | ⟨0, _⟩ => show win0_2.index t (0 : Fin 2) * 400 + 1 * p.val = r.val; omega
    | ⟨1, _⟩ => show win0_2.index t (1 : Fin 2) * 10000 + 1 * j.val = j.val; omega
  rw [hblk, adj_flat]
  exact shapeCast_1ab_ab_apply _ _ r j

/-- The bias block's entry `(0, d)` is bias `d`. -/
theorem bias_entry (c : Dev nD) (t : Fin cfg0.N) (d : Fin 128) :
    (iblk m c 3 t : Vec F S1x128 .f32) (ix2 (0 : Fin 1) d) = m ((c : Thread nD τ).loc main_arg3) (ix1 d) := by
  obtain ⟨-, -, -, -, -, -, e0, e1, -⟩ := block_indices t
  have hblk : (iblk m c 3 t : Vec F S1x128 .f32) (ix2 (0 : Fin 1) d) = (V m c main_v2 : Vec F S1x128 .f32) (ix2 (0 : Fin 1) d) := by
    unfold iblk
    rw [View.read_apply]
    show V m c main_v2 _ = V m c main_v2 _
    congr 1
    funext a
    apply Fin.ext
    match a with
    | ⟨0, _⟩ => show win0_3.index t (0 : Fin 2) * 1 + 1 * 0 = 0; omega
    | ⟨1, _⟩ => show win0_3.index t (1 : Fin 2) * 128 + 1 * d.val = d.val; omega
  rw [hblk, bias_row]
  exact shapeCast_a_1a_apply _ _ (0 : Fin 1) d

/-- The slope block's one entry is the slope. -/
theorem slope_entry (c : Dev nD) (t : Fin cfg0.N) :
    (iblk m c 4 t : Vec F S1x1 .f32) (ix2 (0 : Fin 1) (0 : Fin 1)) = m ((c : Thread nD τ).loc main_arg4) (ix1 (0 : Fin 1)) := by
  obtain ⟨-, -, -, -, -, -, -, -, e0, e1, -⟩ := block_indices t
  have hblk : (iblk m c 4 t : Vec F S1x1 .f32) (ix2 (0 : Fin 1) (0 : Fin 1)) = (V m c main_v3 : Vec F S1x1 .f32) (ix2 (0 : Fin 1) (0 : Fin 1)) := by
    unfold iblk
    rw [View.read_apply]
    show V m c main_v3 _ = V m c main_v3 _
    congr 1
    funext a
    apply Fin.ext
    match a with
    | ⟨0, _⟩ => show win0_4.index t (0 : Fin 2) * 1 + 1 * 0 = 0; omega
    | ⟨1, _⟩ => show win0_4.index t (1 : Fin 2) * 1 + 1 * 0 = 0; omega
  rw [hblk, slope_cell]
  exact shapeCast_a_1a_apply _ _ (0 : Fin 1) (0 : Fin 1)

end Cert.KernelIdeal.Bridge

end
-- ==== Proof.Carried.lean ====
/-
  What the scratch and the output block hold after every grid point.

  The sequence block and the weight block are the whole arrays at every point (their block indices never move), so
  the feature matrix stored at the first point is one fixed matrix, and since no later point writes the scratch it is
  still that matrix after every point: an induction along the grid. Hence the output block after point `t` is the
  activation tile of adjacency tile `t` against that one matrix, at the first point and at every later one alike.
-/
import proofs.«177363_g386547056873_cont_8to1_b_852_5_alg».proof.Proof.Pieces
import proofs.«177363_g386547056873_cont_8to1_b_852_5_alg».proof.Proof.Blocks

noncomputable section

open Idealize.ShloMosaic Idealize.ShloMosaic.TcCoe Idealize.SL.Sem

namespace Cert.KernelIdeal.Bridge

open Cert.KernelIdeal Cert.KernelIdeal.Gen

variable {F : FTy → Type} [FloatOps F]
variable (m : (ℓ : Loc nD τ sig) → Buf (Elt F) ℓ)

/-- The feature matrix the first point stores: every row of the flattened sequence against every row of the weight. -/
def features (c : Dev nD) : Vec F S10000x128 .f32 := k0_pay1 (V m c main_v0) (V m c main_arg2)

/-- The first point: the activation tile over the features just stored, and those features. -/
theorem at_first (c : Dev nD) (t : Fin cfg0.N) (h0 : t.val % 25 = 0) :
    outsAt0 m c t.val t.isLt
      = (k0_pay2 (iblk m c 2 t) (k0_pay1 (iblk m c 0 t) (iblk m c 1 t)) (iblk m c 3 t) (iblk m c 4 t),
          k0_pay1 (iblk m c 0 t) (iblk m c 1 t)) :=
  (outsAt0_A m c t h0).trans (congrArg₂ Prod.mk
    (out_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t))
    (scratch_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)))

/-- A later point: the activation tile over what the point before left in the scratch, which stays. -/
theorem at_later (c : Dev nD) (t : Fin cfg0.N) (h0 : ¬t.val % 25 = 0) :
    outsAt0 m c t.val t.isLt
      = (k0_pay2 (iblk m c 2 t) (outsAt0 m c (t.val - 1) (Nat.lt_of_le_of_lt (Nat.sub_le _ _) t.isLt)).2 (iblk m c 3 t) (iblk m c 4 t),
          (outsAt0 m c (t.val - 1) (Nat.lt_of_le_of_lt (Nat.sub_le _ _) t.isLt)).2) :=
  (outsAt0_B m c t h0).trans (congrArg₂ Prod.mk
    (out_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2)
    rfl)

/-- After every point the scratch holds the one feature matrix: stored at the first point, kept by every later one. -/
theorem scratch_eq (c : Dev nD) : ∀ (n : ℕ) (hn : n < cfg0.N), (outsAt0 m c n hn).2 = features m c
  | 0, hn => by
    refine (congrArg Prod.snd (at_first m c ⟨0, hn⟩ rfl)).trans ?_
    show k0_pay1 (iblk m c 0 ⟨0, hn⟩) (iblk m c 1 ⟨0, hn⟩) = _
    rw [seq_block, weight_block]
    rfl
  | n + 1, hn => by
    have hN : cfg0.N = 25 := N_0
    have hB : ¬(⟨n + 1, hn⟩ : Fin cfg0.N).val % 25 = 0 := by dsimp only; omega
    refine (congrArg Prod.snd (at_later m c ⟨n + 1, hn⟩ hB)).trans ?_
    exact scratch_eq c n _

/-- After point `t` the output block is the activation tile of adjacency tile `t` against the feature matrix. -/
theorem tile_eq (c : Dev nD) (t : Fin cfg0.N) :
    (outsAt0 m c t.val t.isLt).1 = k0_pay2 (iblk m c 2 t) (features m c) (iblk m c 3 t) (iblk m c 4 t) := by
  by_cases h0 : t.val % 25 = 0
  · refine (congrArg Prod.fst (at_first m c t h0)).trans ?_
    show k0_pay2 (iblk m c 2 t) (k0_pay1 (iblk m c 0 t) (iblk m c 1 t)) (iblk m c 3 t) (iblk m c 4 t) = _
    rw [seq_block, weight_block]
    rfl
  · refine (congrArg Prod.fst (at_later m c t h0)).trans ?_
    show k0_pay2 (iblk m c 2 t) (outsAt0 m c (t.val - 1) _).2 (iblk m c 3 t) (iblk m c 4 t) = _
    rw [scratch_eq]

end Cert.KernelIdeal.Bridge

end
-- ==== Proof.Spec.lean ====
/-
  The result, as one function of the five argument arrays.

  For a sequence `x` of 10000 rows of 128 features, a weight `W` of 128 rows, a 10000 × 10000 adjacency `A`, a bias
  row `b` and one slope `α`, over the extended reals:

    feature (j, d)  =  Σ_k  x (j, k) · W (d, k)                    (row j of the sequence against row d of the weight)
    preact  (r, d)  =  Σ_j  A (r, j) · feature (j, d)  +  b (d)    (row r of the adjacency against column d, plus bias)
    output  (r, d)  =  preact (r, d)  if it is ≥ 0,  α · preact (r, d)  otherwise.

  Both programs compute exactly this, with the sums grouped in this way and the slope on the left of the product, so no
  law of arithmetic is needed to join them — only that each side's index bookkeeping lands on these entries.
-/
import Idealize.ShloMosaic.PureOps.Ideal
import Idealize.ShloMosaic.Lib.ValueIdx

noncomputable section

namespace Cert.Spec

open Idealize.ShloMosaic Idealize.ShloMosaic.ValueIdx

/-- The array shapes of the statement. -/
abbrev SeqShape : Shape := ⟨3, ![1, 10000, 128]⟩
abbrev AdjShape : Shape := ⟨3, ![1, 10000, 10000]⟩
abbrev WShape : Shape := ⟨2, ![128, 128]⟩
abbrev BiasShape : Shape := ⟨1, ![128]⟩
abbrev SlopeShape : Shape := ⟨1, ![1]⟩

/-- The activation: keep a non-negative value, scale a negative one by the slope (the comparison is the ordered
    "greater or equal" against the zero word, the product has the slope on the left). -/
def activation (α a : Ideal .f32) : Ideal .f32 :=
  Scalar.select (FloatOps.cmpf (F := Ideal) .oge a (FloatOps.ofBits (F := Ideal) .f32 0x00000000#32)) a (α * a)

/-- Row `j` of the sequence against row `d` of the weight. -/
def feature (x : SeqShape.Idx → Ideal .f32) (W : WShape.Idx → Ideal .f32) (j : Fin 10000) (d : Fin 128) : Ideal .f32 :=
  ∑ k : Fin 128, x (ix3 (0 : Fin 1) j k) * W (ix2 d k)

/-- Row `r` of the adjacency against column `d` of the feature matrix, plus the bias at `d`. -/
def preact (x : SeqShape.Idx → Ideal .f32) (A : AdjShape.Idx → Ideal .f32) (W : WShape.Idx → Ideal .f32)
    (b : BiasShape.Idx → Ideal .f32) (r : Fin 10000) (d : Fin 128) : Ideal .f32 :=
  (∑ j : Fin 10000, A (ix3 (0 : Fin 1) r j) * feature x W j d) + b (ix1 d)

/-- The whole result array. -/
def output (x : SeqShape.Idx → Ideal .f32) (A : AdjShape.Idx → Ideal .f32) (W : WShape.Idx → Ideal .f32)
    (b : BiasShape.Idx → Ideal .f32) (α : SlopeShape.Idx → Ideal .f32) : SeqShape.Idx → Ideal .f32 := fun i =>
  activation (α (ix1 (0 : Fin 1))) (preact x A W b ⟨(i 1).val, (i 1).isLt⟩ ⟨(i 2).val, (i 2).isLt⟩)

/-- The result at batch `u`, row `r`, column `d`. -/
theorem output_apply (x : SeqShape.Idx → Ideal .f32) (A : AdjShape.Idx → Ideal .f32) (W : WShape.Idx → Ideal .f32)
    (b : BiasShape.Idx → Ideal .f32) (α : SlopeShape.Idx → Ideal .f32) (u : Fin 1) (r : Fin 10000) (d : Fin 128) :
    output x A W b α (ix3 u r d) = activation (α (ix1 (0 : Fin 1))) (preact x A W b r d) := rfl

end Cert.Spec

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibDenseRows.lean ====
/-
  A matrix product against a transposed right operand, read as rows times rows.

  A dot whose dimension numbers contract the columns of BOTH operands, with no batch axis, sends an `[n, K]` array and
  an `[h, K]` array to the `[n, h]` array whose entry `(e, q)` is the sum over `k` of `left (e, k) · right (q, k)` — the
  product with the right operand's transpose, as a score of row `e` against row `q`.  The dimension numbers enter only
  through four facts about where the dot reads its operands (`hl0`, `hl1`, `hr0`, `hr1`), which a given record of
  dimension numbers decides; at the exact extended-real values the kernel's product into a zero accumulator and the
  host's product are both that sum, whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(q, k)`. -/
theorem rowsDot_indices {n K h : Nat} (D : DotDims ⟨2, ![n, K]⟩ ⟨2, ![h, K]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (i 1).val)
    (hr1 : ∀ (i : (⟨2, ![n, h]⟩ : Shape).Idx) (k : D.contr.Idx), (D.rhsIdx i k 1).val = (k ⟨0, by omega⟩).val)
    (e : Fin n) (q : Fin h) (k : Fin K) :
    D.lhsIdx (ix2 e q) ((contrEquiv1 D K hr hs).symm k) = ix2 e k
    ∧ D.rhsIdx (ix2 e q) ((contrEquiv1 D K hr hs).symm k) = ix2 q k := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact hr0 _ _
    | ⟨1, _⟩ => exact (hr1 _ _).trans hk

/-- The kernel's product into the zero accumulator, at `(e, q)`: the sum over `k` of `a (e, k) · w (q, k)`. -/
theorem matmul_zero_rows_apply {n K h : Nat} {φ₁ φ₂ : FTy} (D : DotDims ⟨2, ![n, K]⟩ ⟨2, ![h, K]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (i 1).val)
    (hr1 : ∀ (i : (⟨2, ![n, h]⟩ : Shape).Idx) (k : D.contr.Idx), (D.rhsIdx i k 1).val = (k ⟨0, by omega⟩).val)
    (a : FVec Ideal ⟨2, ![n, K]⟩ φ₁) (w : FVec Ideal ⟨2, ![h, K]⟩ φ₂) (e : Fin n) (q : Fin h) :
    FloatOps.matmul D prec a w (constant ⟨2, ![n, h]⟩ .f32 0x00000000#32) (ix2 e q) = ∑ k : Fin K, a (ix2 e k) * w (ix2 q k) := by
  rw [Ideal.matmul_constant_zero_apply, ← Equiv.sum_comp (contrEquiv1 D K hr hs).symm]
  refine Finset.sum_congr rfl fun k _ => ?_
  obtain ⟨el, er⟩ := rowsDot_indices D hr hs hl0 hl1 hr0 hr1 e q k
  rw [el, er]

/-- The host's product, at `(e, q)`: the same sum. -/
theorem dotGeneral_rows_apply {n K h : Nat} {φ₁ φ₂ : FTy} (D : DotDims ⟨2, ![n, K]⟩ ⟨2, ![h, K]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (i 1).val)
    (hr1 : ∀ (i : (⟨2, ![n, h]⟩ : Shape).Idx) (k : D.contr.Idx), (D.rhsIdx i k 1).val = (k ⟨0, by omega⟩).val)
    (a : FVec Ideal ⟨2, ![n, K]⟩ φ₁) (w : FVec Ideal ⟨2, ![h, K]⟩ φ₂) (e : Fin n) (q : Fin h) :
    FloatOps.dotGeneral D prec sched a w (ix2 e q) = ∑ k : Fin K, a (ix2 e k) * w (ix2 q k) := by
  rw [Ideal.dotGeneral_apply, ← Equiv.sum_comp (contrEquiv1 D K hr hs).symm]
  refine Finset.sum_congr rfl fun k _ => ?_
  obtain ⟨el, er⟩ := rowsDot_indices D hr hs hl0 hl1 hr0 hr1 e q k
  rw [el, er]

end Idealize.ShloMosaic.ValueIdx
-- ==== Proof.TileValue.lean ====
/-
  The body's two stored values, read entry by entry over the extended reals.

  The feature matrix at `(j, d)` is the sum over `k` of sequence `(j, k)` times weight `(d, k)`: the product
  contracts the columns of both operands. The activation tile at `(p, d)` is the activation, with the slope entry,
  of the sum over `j` of adjacency-tile `(p, j)` times scratch `(j, d)`, plus the bias row at `d`: a plain product,
  a one-row broadcast, and pointwise operations. The casts in the body are between equal shapes and drop out.
-/
import proofs.«177363_g386547056873_cont_8to1_b_852_5_alg».proof.Proof.Gen.KernelIdeal.Skeleton
import proofs.«177363_g386547056873_cont_8to1_b_852_5_alg».proof.Proof.Spec
import proofs.«177363_g386547056873_cont_8to1_b_852_5_alg».proof.Proof.LibDense
import proofs.«177363_g386547056873_cont_8to1_b_852_5_alg».proof.Proof.LibDenseRows
import Idealize.ShloMosaic.Lib.ValueLayout
import Idealize.ShloMosaic.Lib.Pipeline.Value

noncomputable section

open Idealize.ShloMosaic Idealize.ShloMosaic.ValueIdx

namespace Cert.KernelIdeal.Bridge

open Cert.KernelIdeal Cert.KernelIdeal.Gen

/-- The feature product reads its left operand at (row, k) and its right operand at (column, k). -/
theorem feature_dot_lhs0 (i : S10000x128.Idx) (k : dot_S10000x128_S128x128_S10000x128_1_1_0_0_n_n.contr.Idx) :
    (dot_S10000x128_S128x128_S10000x128_1_1_0_0_n_n.lhsIdx i k 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem feature_dot_lhs1 (i : S10000x128.Idx) (k : dot_S10000x128_S128x128_S10000x128_1_1_0_0_n_n.contr.Idx) :
    (dot_S10000x128_S128x128_S10000x128_1_1_0_0_n_n.lhsIdx i k 1).val = (k ⟨0, by decide⟩).val :=
  dot_S10000x128_S128x128_S10000x128_1_1_0_0_n_n.lhsIdx_val_of_single rfl i k
theorem feature_dot_rhs0 (i : S10000x128.Idx) (k : dot_S10000x128_S128x128_S10000x128_1_1_0_0_n_n.contr.Idx) :
    (dot_S10000x128_S128x128_S10000x128_1_1_0_0_n_n.rhsIdx i k 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem feature_dot_rhs1 (i : S10000x128.Idx) (k : dot_S10000x128_S128x128_S10000x128_1_1_0_0_n_n.contr.Idx) :
    (dot_S10000x128_S128x128_S10000x128_1_1_0_0_n_n.rhsIdx i k 1).val = (k ⟨0, by decide⟩).val :=
  dot_S10000x128_S128x128_S10000x128_1_1_0_0_n_n.rhsIdx_val_of_single rfl i k

/-- The feature matrix at `(j, d)`: row `j` of the first block against row `d` of the second. -/
theorem feature_entry (x0 : FVec Ideal S10000x128 .f32) (x1 : FVec Ideal S128x128 .f32) (j : Fin 10000) (d : Fin 128) :
    k0_pay1 (F := Ideal) x0 x1 (ix2 j d) = ∑ k : Fin 128, x0 (ix2 j k) * x1 (ix2 d k) := by
  unfold k0_pay1
  rw [shapeCast_self, shapeCast_self]
  exact matmul_zero_rows_apply dot_S10000x128_S128x128_S10000x128_1_1_0_0_n_n none rfl rfl feature_dot_lhs0 feature_dot_lhs1 feature_dot_rhs0
    feature_dot_rhs1 x0 x1 j d

/-- The tile product reads its left operand at (row, j) and its right operand at (j, column). -/
theorem tile_dot_lhs0 (i : S400x128.Idx) (k : dot_S400x10000_S10000x128_S400x128_1_0_0_1_n_n.contr.Idx) :
    (dot_S400x10000_S10000x128_S400x128_1_0_0_1_n_n.lhsIdx i k 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem tile_dot_lhs1 (i : S400x128.Idx) (k : dot_S400x10000_S10000x128_S400x128_1_0_0_1_n_n.contr.Idx) :
    (dot_S400x10000_S10000x128_S400x128_1_0_0_1_n_n.lhsIdx i k 1).val = (k ⟨0, by decide⟩).val :=
  dot_S400x10000_S10000x128_S400x128_1_0_0_1_n_n.lhsIdx_val_of_single rfl i k
theorem tile_dot_rhs0 (i : S400x128.Idx) (k : dot_S400x10000_S10000x128_S400x128_1_0_0_1_n_n.contr.Idx) :
    (dot_S400x10000_S10000x128_S400x128_1_0_0_1_n_n.rhsIdx i k 0).val = (k ⟨0, by decide⟩).val :=
  dot_S400x10000_S10000x128_S400x128_1_0_0_1_n_n.rhsIdx_val_of_single rfl i k
theorem tile_dot_rhs1 (i : S400x128.Idx) (k : dot_S400x10000_S10000x128_S400x128_1_0_0_1_n_n.contr.Idx) :
    (dot_S400x10000_S10000x128_S400x128_1_0_0_1_n_n.rhsIdx i k 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The value before the activation, at `(p, d)`: tile row `p` against scratch column `d`, plus the bias row at `d`. -/
theorem tile_preact_entry (x2 : FVec Ideal S400x10000 .f32) (xs : FVec Ideal S10000x128 .f32) (x3 : FVec Ideal S1x128 .f32)
    (p : Fin 400) (d : Fin 128) :
    addf (matmul dot_S400x10000_S10000x128_S400x128_1_0_0_1_n_n none (shapeCast S400x10000 x2 shapeCasts_S400x10000_S400x10000) xs
        (constant S400x128 .f32 0x00000000#32))
      (broadcastTo S400x128 (shapeCast S1x128 x3 shapeCasts_S1x128_S1x128) broadcasts_S1x128_S400x128) (ix2 p d)
      = (∑ j : Fin 10000, x2 (ix2 p j) * xs (ix2 j d)) + x3 (ix2 (0 : Fin 1) d) := by
  rw [addf_apply, shapeCast_self, shapeCast_self, broadcastTo_1b_ab_apply]
  refine congrArg (· + x3 (ix2 (0 : Fin 1) d)) ?_
  exact matmul_zero_plain_apply dot_S400x10000_S10000x128_S400x128_1_0_0_1_n_n none rfl rfl tile_dot_lhs0 tile_dot_lhs1 tile_dot_rhs0 tile_dot_rhs1
    x2 xs p d

/-- The activation tile at `(p, d)`. -/
theorem tile_entry (x2 : FVec Ideal S400x10000 .f32) (xs : FVec Ideal S10000x128 .f32) (x3 : FVec Ideal S1x128 .f32)
    (x4 : FVec Ideal S1x1 .f32) (p : Fin 400) (d : Fin 128) :
    k0_pay2 (F := Ideal) x2 xs x3 x4 (ix2 p d)
      = Cert.Spec.activation (x4 (ix2 (0 : Fin 1) (0 : Fin 1)))
          ((∑ j : Fin 10000, x2 (ix2 p j) * xs (ix2 j d)) + x3 (ix2 (0 : Fin 1) d)) := by
  have hα : extractAt ![0, 0] x4 inpos_S1x1_p0_0 = x4 (ix2 (0 : Fin 1) (0 : Fin 1)) :=
    congrArg x4 (funext fun a => Fin.ext (by match a with | ⟨0, _⟩ => rfl | ⟨1, _⟩ => rfl))
  rw [← tile_preact_entry x2 xs x3 p d, ← hα]
  rfl

end Cert.KernelIdeal.Bridge

end
-- ==== Proof.Rows.lean ====
/-
  From the output tiles to the whole output array.

  Point `t` writes back tile `t` of the output: its entry `(p, d)` is the activation tile's, which — the adjacency
  tile's row `p` being adjacency row `400 t + p`, the scratch the feature matrix, the bias row and the slope the
  arguments' — is the specification's output at row `400 t + p`, column `d`. The 25 tiles of 400 rows tile the 10000
  rows (row `r` lies in tile `r / 400`), every point writes its tile back, so after the last point the array the
  region writes is the specification's output with the leading unit axis dropped.
-/
import proofs.«177363_g386547056873_cont_8to1_b_852_5_alg».proof.Proof.Carried
import proofs.«177363_g386547056873_cont_8to1_b_852_5_alg».proof.Proof.TileValue

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

variable (m : (ℓ : Loc nD τ sig) → Buf (Elt Ideal) ℓ)

/-- The array the region writes: the specification's output of the five arguments, as a `[10000, 128]` matrix. -/
def rows (c : Dev nD) : S10000x128.Idx → Ideal .f32 := fun i =>
  Cert.Spec.activation (m ((c : Thread nD τ).loc main_arg4) (ix1 (0 : Fin 1)))
    (Cert.Spec.preact (m ((c : Thread nD τ).loc main_arg0)) (m ((c : Thread nD τ).loc main_arg1)) (m ((c : Thread nD τ).loc main_arg2)) (m ((c : Thread nD τ).loc main_arg3)) ⟨(i 0).val, (i 0).isLt⟩ ⟨(i 1).val, (i 1).isLt⟩)

theorem rows_apply (c : Dev nD) (r : Fin 10000) (d : Fin 128) :
    rows m c (ix2 r d) = Cert.Spec.activation (m ((c : Thread nD τ).loc main_arg4) (ix1 (0 : Fin 1)))
      (Cert.Spec.preact (m ((c : Thread nD τ).loc main_arg0)) (m ((c : Thread nD τ).loc main_arg1)) (m ((c : Thread nD τ).loc main_arg2)) (m ((c : Thread nD τ).loc main_arg3)) r d) := rfl

/-- The resident feature matrix at `(j, d)` is the specification's feature of the sequence and weight arguments. -/
theorem features_entry (c : Dev nD) (j : Fin 10000) (d : Fin 128) :
    features m c (ix2 j d)
      = Cert.Spec.feature (m ((c : Thread nD τ).loc main_arg0)) (m ((c : Thread nD τ).loc main_arg2)) j d := by
  unfold features
  refine (feature_entry (V m c main_v0) (V m c main_arg2) j d).trans ?_
  unfold Cert.Spec.feature
  refine Finset.sum_congr rfl fun k _ => ?_
  exact congrArg₂ (· * ·) (seq_entry m c j k) (congrFun (V_main_arg2 m c) (ix2 d k))

/-- The activation tile of point `t` at `(p, d)` is the output at row `r = 400 t + p`, column `d`. -/
theorem tile_at (c : Dev nD) (t : Fin cfg0.N) (p : Fin 400) (d : Fin 128) (r : Fin 10000)
    (hr : r.val = 400 * t.val + p.val) :
    k0_pay2 (iblk m c 2 t) (features m c) (iblk m c 3 t) (iblk m c 4 t) (ix2 p d) = rows m c (ix2 r d) := by
  refine (tile_entry (iblk m c 2 t) (features m c) (iblk m c 3 t) (iblk m c 4 t) p d).trans ?_
  rw [rows_apply, slope_entry, bias_entry]
  unfold Cert.Spec.preact
  refine congrArg (fun s => Cert.Spec.activation _ (s + _)) ?_
  refine Finset.sum_congr rfl fun j _ => ?_
  exact congrArg₂ (· * ·) (adj_entry m c t p j r hr) (features_entry m c j d)

/-- WHAT POINT `t` WRITES BACK is tile `t` of the output rows. -/
theorem flushed_tile (c : Dev nD) (t : Fin cfg0.N) :
    (dats m 0 c).flushed 5 t = ((cfg0.win 5).blk t).view.read (Elt Ideal) (rows m c) := by
  show (cfg0.win 5).cut (grid0.coords t) ((dats m 0 c).after 5 t) = _
  rw [after0_5, tile_eq]
  obtain ⟨-, -, -, -, -, -, -, -, -, -, e0, e1⟩ := block_indices t
  have hN : t.val < 25 := lt_of_lt_of_eq t.isLt N_0
  funext y
  have hy0 : (y 0).val < 400 := (y 0).isLt
  have hy1 : (y 1).val < 128 := (y 1).isLt
  rw [View.read_apply]
  have hl : (cfg0.win 5).cut (grid0.coords t) (k0_pay2 (iblk m c 2 t) (features m c) (iblk m c 3 t) (iblk m c 4 t)) y
      = k0_pay2 (iblk m c 2 t) (features m c) (iblk m c 3 t) (iblk m c 4 t) (ix2 (⟨(y 0).val, hy0⟩ : Fin 400) (⟨(y 1).val, hy1⟩ : Fin 128)) :=
    congrArg (k0_pay2 (iblk m c 2 t) (features m c) (iblk m c 3 t) (iblk m c 4 t)) (funext fun a => by
      match a with
      | ⟨0, _⟩ => rfl
      | ⟨1, _⟩ => rfl)
  have hr : ((cfg0.win 5).blk t).view.emb y
      = ix2 (⟨400 * t.val + (y 0).val, by omega⟩ : Fin 10000) (⟨(y 1).val, hy1⟩ : Fin 128) :=
    funext fun a => Fin.ext (by
      match a with
      | ⟨0, _⟩ => show win0_5.index t (0 : Fin 2) * 400 + 1 * (y 0).val = 400 * t.val + (y 0).val; omega
      | ⟨1, _⟩ => show win0_5.index t (1 : Fin 2) * 128 + 1 * (y 1).val = (y 1).val; omega)
  rw [hl, hr]
  exact tile_at m c t _ _ _ rfl

/-- An index of the output array is in point `t`'s tile iff each coordinate is in the tile's range on its axis. -/
theorem mem_tile (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_v4).slice (win0_5.rect t)).set ↔ _
  rw [View.set_slice_whole, Rect.mem_set_unit]
  exact Iff.rfl

/-- Every index of the output array is in some point's tile: row `r` is in tile `r / 400`. -/
theorem covered (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  have ht : (i 0).val / 400 < cfg0.N := by rw [hN]; omega
  obtain ⟨-, -, -, -, -, -, -, -, -, -, e0, e1⟩ := block_indices ⟨(i 0).val / 400, ht⟩
  have e0' : win0_5.index ⟨(i 0).val / 400, ht⟩ (0 : Fin 2) = (i 0).val / 400 := e0
  refine ⟨⟨(i 0).val / 400, ht⟩, flush0_5 _, ?_⟩
  rw [mem_tile]
  intro a
  match a with
  | ⟨0, _⟩ =>
    show win0_5.index ⟨(i 0).val / 400, ht⟩ (0 : Fin 2) * 400 ≤ (i 0).val
      ∧ (i 0).val < win0_5.index ⟨(i 0).val / 400, ht⟩ (0 : Fin 2) * 400 + 400
    omega
  | ⟨1, _⟩ =>
    show win0_5.index ⟨(i 0).val / 400, ht⟩ (1 : Fin 2) * 128 ≤ (i 1).val
      ∧ (i 1).val < win0_5.index ⟨(i 0).val / 400, ht⟩ (1 : Fin 2) * 128 + 128
    omega

/-- THE ARRAY THE REGION WRITES, after the run: the output rows. -/
theorem final_rows (c : Dev nD) : (dats m 0 c).arrAt 5 cfg0.N = rows m c :=
  (dats m 0 c).arrAt_eq_of_cover 5 (rows m c) (fun t _ => flushed_tile m c t) (covered)

end Cert.KernelIdeal.Bridge

end
-- ==== Proof.KernelRun.lean ====
/-
  The idealized kernel's run, with its result named.

  After the region the program only puts the leading unit axis back on the `[10000, 128]` array the region wrote.
  That array is the specification's output as a matrix, so the result `[1, 10000, 128]` is the specification's output:
  entry `(u, r, d)` of the reshaped array is entry `(r, d)` of the matrix. Every weakly fair execution ends there with
  the five arguments as they were.
-/
import proofs.«177363_g386547056873_cont_8to1_b_852_5_alg».proof.Proof.Rows
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

variable (m : (ℓ : Loc nD τ sig) → Buf (Elt Ideal) ℓ) (ρ : Dev nD → PrngReg)

/-- What the region leaves in the array it writes, as the operation after it finds it. -/
theorem region_array (c : Dev nD) :
    Pipeline.withArrays (cfgs 0).spec c (V0 m c) (fun w => (dats m 0 c).arrAt w (cfgs 0).N) (Proc.devRef .tc main_v4)
      = rows m c :=
  (Pipeline.withArrays_arr spec0 launch0.win.arr_inj c _ _ 5).trans (final_rows m c)

/-- The program's result is the specification's output of its five arguments. -/
theorem result_eq (c : Dev nD) :
    Pipeline.afterTail₀ cfgs (dats m) 0 (V0 m) [hostOps1] c main_v5 = Cert.Spec.output (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v5) = _
  after_results
  rw [region_array]
  funext i
  obtain ⟨u, r, d, rfl⟩ : ∃ (u : Fin 1) (r : Fin 10000) (d : Fin 128), i = ix3 u r d := ⟨i 0, i 1, i 2, eq_ix3 i⟩
  rw [Cert.Spec.output_apply]
  exact (shapeCast_ab_1ab_apply (rows m c) shapeCasts_S10000x128_S1x10000x128 u r d).trans (rows_apply m c r d)

/-- THE RUN: every weakly fair execution terminates with the result at the specification's output and the arguments
    unchanged. -/
theorem run : θ_run defs (onTc (τ := τ) (main (F := Ideal))) ⟨m, fun _ => 0, ρ⟩ (fun r => ∀ c : Dev nD,
      r.2.mem ((c.tc : Thread nD τ).loc main_v5) = Cert.Spec.output (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Bridge

end
-- ==== Proof.RefSide.lean ====
/-
  The reference computes the specification.

  Read from its last operation inwards: the selection between the pre-activation and the slope times it, on the
  comparison with zero; the pre-activation as the batched product of the adjacency with the feature array plus the
  bias broadcast along rows; the feature array as the product of the sequence with the weight, contracting the
  feature axis of both. At batch `u`, row `r`, column `d` the two products are the specification's two sums — the
  batch coordinate has one value — and the two broadcasts read the bias at `d` and the one slope.
-/
import proofs.«177363_g386547056873_cont_8to1_b_852_5_alg».proof.Proof.Gen.ReferenceIdeal.Read
import proofs.«177363_g386547056873_cont_8to1_b_852_5_alg».proof.Proof.Spec
import Idealize.ShloMosaic.Lib.ValueIdx
import Idealize.ShloMosaic.PureOps.Ideal.Laws

noncomputable section

open Idealize.ShloMosaic Idealize.ShloMosaic.ValueIdx

namespace Cert.RefSide

open Cert.ReferenceIdeal Cert.ReferenceIdeal.Read

/-- The feature product at `(u, j, d)` reads the sequence at `(0, j, k)` … -/
theorem feature_lhs (u : Fin 1) (j : Fin 10000) (d : Fin 128) (k : Fin 128) :
    lidx_main_v0 (ix3 u j d) k = ix3 (0 : Fin 1) j k :=
  funext fun a => Fin.ext (by
    match a with
    | ⟨0, _⟩ => show u.val = 0; omega
    | ⟨1, _⟩ => rfl
    | ⟨2, _⟩ => rfl)
/-- … and the weight at `(d, k)`. -/
theorem feature_rhs (u : Fin 1) (j : Fin 10000) (d : Fin 128) (k : Fin 128) :
    ridx_main_v0 (ix3 u j d) k = ix2 d k :=
  funext fun a => Fin.ext (by
    match a with
    | ⟨0, _⟩ => rfl
    | ⟨1, _⟩ => rfl)
/-- The adjacency product at `(u, r, d)` reads the adjacency at `(0, r, j)` … -/
theorem adj_lhs (u : Fin 1) (r : Fin 10000) (d : Fin 128) (j : Fin 10000) :
    lidx_main_v1 (ix3 u r d) j = ix3 (0 : Fin 1) r j :=
  funext fun a => Fin.ext (by
    match a with
    | ⟨0, _⟩ => show u.val = 0; omega
    | ⟨1, _⟩ => rfl
    | ⟨2, _⟩ => rfl)
/-- … and the feature array at `(u, j, d)`. -/
theorem adj_rhs (u : Fin 1) (r : Fin 10000) (d : Fin 128) (j : Fin 10000) :
    ridx_main_v1 (ix3 u r d) j = ix3 u j d :=
  funext fun a => Fin.ext (by
    match a with
    | ⟨0, _⟩ => rfl
    | ⟨1, _⟩ => rfl
    | ⟨2, _⟩ => rfl)
/-- The bias, broadcast twice, is read at `d`. -/
theorem bias_idx (u : Fin 1) (r : Fin 10000) (d : Fin 128) :
    idx_main_v2 (idx_main_v3 (ix3 u r d)) = ix1 d :=
  funext fun a => Fin.ext (by
    match a with
    | ⟨0, _⟩ => rfl)
/-- The slope, broadcast twice, is read at its one entry. -/
theorem slope_idx (u : Fin 1) (r : Fin 10000) (d : Fin 128) :
    idx_main_v7 (idx_main_v8 (ix3 u r d)) = ix1 (0 : Fin 1) :=
  funext fun a => Fin.ext (by
    match a with
    | ⟨0, _⟩ => rfl)

/-- The reference's feature array at `(u, j, d)`. -/
theorem feature_apply (x0 : (⟨S1x10000x128, .f32⟩ : BufTy).Contents (Elt Ideal)) (x2 : (⟨S128x128, .f32⟩ : BufTy).Contents (Elt Ideal))
    (u : Fin 1) (j : Fin 10000) (d : Fin 128) :
    val_main_v0 (F := Ideal) x0 x2 (ix3 u j d) = Cert.Spec.feature x0 x2 j d := by
  rw [val_main_v0_apply]
  unfold Cert.Spec.feature
  refine Finset.sum_congr rfl fun k _ => ?_
  rw [feature_lhs, feature_rhs]

/-- The reference's pre-activation at `(u, r, d)`. -/
theorem preact_apply (x0 : (⟨S1x10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (u : Fin 1) (r : Fin 10000) (d : Fin 128) :
    val_main_v4 (F := Ideal) x0 x1 x2 x3 (ix3 u r d) = Cert.Spec.preact x0 x1 x2 x3 r d := by
  rw [val_main_v4_apply, val_main_v1_apply, val_main_v3_apply, val_main_v2_apply, bias_idx]
  unfold Cert.Spec.preact
  refine congrArg (· + x3 (ix1 d)) ?_
  refine Finset.sum_congr rfl fun j _ => ?_
  rw [adj_lhs, adj_rhs, feature_apply]

/-- The reference's result is the specification's output of its five arguments. -/
theorem result_eq (x0 : (⟨S1x10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (x4 : (⟨S1, .f32⟩ : BufTy).Contents (Elt Ideal)) :
    val_main_v10 (F := Ideal) x0 x1 x2 x3 x4 = Cert.Spec.output x0 x1 x2 x3 x4 := by
  funext i
  obtain ⟨u, r, d, rfl⟩ : ∃ (u : Fin 1) (r : Fin 10000) (d : Fin 128), i = ix3 u r d := ⟨i 0, i 1, i 2, eq_ix3 i⟩
  rw [Cert.Spec.output_apply, val_main_v10_apply, val_main_v6_apply, val_main_v9_apply, val_main_v5_apply,
    val_main_cst_apply, val_main_v8_apply, val_main_v7_apply, slope_idx, preact_apply]
  rfl

end Cert.RefSide

end
-- ==== Proof.lean ====
/-
  A dense graph-convolution layer, PReLU (adj · (seq · Wᵀ) + bias), as a tiled kernel and as two einsums: the two
  programs end with equal results over the extended reals.

  The kernel walks 25 tiles of 400 adjacency rows. At the first tile it forms the feature matrix seq · Wᵀ once into a
  resident scratch; at every tile it multiplies the tile by that matrix, adds the bias row and applies the activation
  (keep a non-negative entry, scale a negative one by the slope). The reference forms the feature array by one
  contraction, the pre-activation by a second, adds the broadcast bias and selects in the same way. Entry by entry
  both are

      Σ_j adj (r, j) · (Σ_k seq (j, k) · W (d, k)) + bias (d),     then the activation with the slope,

  with the sums grouped identically and the slope on the left of its product, so no law of arithmetic is needed and
  the finiteness of the inputs is never used: the proof is that each program's index bookkeeping lands on these
  entries (Proof/Spec.lean states the function; Proof/RefSide.lean reads the reference; Proof/Pieces.lean,
  Blocks.lean, Carried.lean, TileValue.lean, Rows.lean and KernelRun.lean read the kernel — what one run of the body
  stores, what the blocks are, that the scratch holds the same feature matrix after every tile, the arithmetic of a
  tile, the 25 tiles as one array, and the reshape after the region).

  The frames of the two kernel programs are the generated frame runs; the reference's frame is its generated run with
  the result forgotten; the idealization rewrote nothing, so `preserves` is trivial.
-/
import proofs.«177363_g386547056873_cont_8to1_b_852_5_alg».proof.Defs
import proofs.«177363_g386547056873_cont_8to1_b_852_5_alg».proof.Proof.Gen.Kernel
import proofs.«177363_g386547056873_cont_8to1_b_852_5_alg».proof.Proof.Gen.Kernel.Frame
import proofs.«177363_g386547056873_cont_8to1_b_852_5_alg».proof.Proof.Gen.KernelIdeal
import proofs.«177363_g386547056873_cont_8to1_b_852_5_alg».proof.Proof.Gen.KernelIdeal.Frame
import proofs.«177363_g386547056873_cont_8to1_b_852_5_alg».proof.Proof.Gen.ReferenceIdeal
import proofs.«177363_g386547056873_cont_8to1_b_852_5_alg».proof.Proof.Gen.ReferenceIdeal.Run
import proofs.«177363_g386547056873_cont_8to1_b_852_5_alg».proof.Proof.Gen.ReferenceIdeal.Read
import proofs.«177363_g386547056873_cont_8to1_b_852_5_alg».proof.Proof.Gen.Pre_finite_inputs
import proofs.«177363_g386547056873_cont_8to1_b_852_5_alg».proof.Proof.KernelRun
import proofs.«177363_g386547056873_cont_8to1_b_852_5_alg».proof.Proof.RefSide

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's output of the kernel's arguments: the kernel's by its run, the reference's
    because its last stage is that output of its own arguments, which agree with the kernel's. -/
theorem algebraic : Cert.algebraic_KernelIdeal_ReferenceIdeal := by
  intro m ρ m' ρ' _ hagree
  refine ⟨fun c => Cert.Spec.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Bridge.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.RefSide.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
